-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 95
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .f32⟩
  | .hbm, ⟨16, _⟩ => ⟨S1700000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1700000x1, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S100000, .f32⟩
  | 15 => ⟨S_, .f32⟩
  | 16 => ⟨S1700000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000, .i32⟩
  | 77 => ⟨S1700000, .i32⟩
  | 78 => ⟨S1700000, .i32⟩
  | 79 => ⟨S_, .f32⟩
  | 80 => ⟨S100000, .f32⟩
  | 81 => ⟨S_, .f32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S100000x64, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x64, .f32⟩
  | 1 => ⟨S1700000x1, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_call2_v0 : Ref sig .tc := ⟨.hbm, 97, rfl⟩
abbrev main_call2_v1 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result named.

  The program is two launches of a row-blocked matrix product among stretches of host operations. Its generated
  frame follows the buffer contents through the program as a fold: `W0` is the launch memory, each host stretch
  applies its operations in order, and each launch replaces its output array by what the grid's write-backs leave
  (`W1` … `W8`). The frame's own conclusion keeps only the six argument arrays. Here the same run is concluded
  with one more buffer read off the last boundary: the result `main_v68` ends holding `W8` at that buffer. What
  `W8` is there, as a function of the arguments, is the subject of the later modules.
-/
import proofs.«130710_j1073741824486_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W8`, and the six argument arrays end as launched. -/
theorem run : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Spec.lean ====
/-
  The specification both programs are compared with: two rounds of degree-normalised message passing over a
  graph, stated once as pure functions of the six arguments, over any float instance.

  The graph has 100000 nodes and 1600000 edges `e` (row 0 the sources, row 1 the targets); a self-loop is appended
  for every node, which makes 1700000 messages. `deg` counts the messages arriving at each node, `dinv` is
  `deg^(-1/2)` where the degree is positive and `0` elsewhere, and message `k` carries the weight
  `dinv[src k] · dinv[dst k]` (`norm`). One round takes node features `h`, gathers the source's row for every message,
  scales it by the message's weight, sums the messages at their targets and adds a bias (`layer1` at width 128,
  `layer2` at width 64). The whole computation is
  `layer2 ((relu (layer1 (x · W1) e b1)) · W2) e b2`, the two dense products being the host's `dot_general`.
  An index below zero that is used to GATHER counts from the end (`wrapCol`); the scatter's targets are used as they
  are. Every operation here is the one the printed programs apply, on the same operands, in the same order.
-/
import proofs.«130710_j1073741824486_1_alg».proof.Proof.Gen.ReferenceIdeal

noncomputable section

namespace Cert.ReferenceIdeal.Spec

open Cert.ReferenceIdeal Cert.ReferenceIdeal.Gen Idealize.ShloMosaic

variable {F : FTy → Type} [FloatOps F]

/-- The sources of the 1700000 messages: row 0 of the edge list, then one self-loop per node. -/
def src (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Their targets: row 1 of the edge list, then the same self-loops. -/
def dst (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- Node numbers made ready for a gather: a number below zero counts from the end (`v + 100000`), and the list
    becomes a column of one-entry index vectors. -/
def wrapCol (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- How many messages arrive at each node: ones summed at the targets. -/
def deg (e : (⟨S2x1600000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (wrapCol (F := F) (dst (F := F) e))
    (broadcastInDim S1700000 ![] bcast_S_S1700000 (constant (F := F) S_ .f32 0x3F800000#32))

/-- `deg^(-1/2)` where the degree is positive, zero elsewhere. -/
def dinv (e : (⟨S2x1600000, .i32⟩ : BufTy).Contents (Elt F)) : (⟨S100000, .f32⟩ : BufTy).Contents (Elt F) :=
  select (cmpf .ogt (deg (F := F) e) (broadcastInDim S100000 ![] bcast_S_S100000 (constant (F := F) S_ .f32 0x00000000#32)))
    (Host.rsqrt (deg (F := F) e))
    (broadcastInDim S100000 ![] bcast_S_S100000 (constant (F := F) S_ .f32 0x00000000#32))

/-- The weight of each message: `dinv` at its source times `dinv` at its target. -/
def norm (e : (⟨S2x1600000, .i32⟩ : BufTy).Contents (Elt F)) : (⟨S1700000, .f32⟩ : BufTy).Contents (Elt F) :=
  mulf (Host.gather gather_S100000_S1700000x1_S1700000_n_0_n_n_0_1_1 (dinv (F := F) e) (wrapCol (F := F) (src (F := F) e)))
    (Host.gather gather_S100000_S1700000x1_S1700000_n_0_n_n_0_1_1 (dinv (F := F) e) (wrapCol (F := F) (dst (F := F) e)))

/-- The weights as a column, ready to be spread along a feature axis. -/
def normCol (e : (⟨S2x1600000, .i32⟩ : BufTy).Contents (Elt F)) : (⟨S1700000x1, .f32⟩ : BufTy).Contents (Elt F) :=
  broadcastInDim S1700000x1 ![0] bcast_S1700000_S1700000x1_0 (norm (F := F) e)

/-- One round at width 128, from the features `h`, the messages' sources `s` and targets `d`, their weights as a
    column `nc`, and the bias `b`: every message takes its source's row of `h` scaled by the message's weight; the
    messages are summed at their targets; the bias is added to every row. -/
def round1 (h : (⟨S100000x128, .f32⟩ : BufTy).Contents (Elt F)) (s d : (⟨S1700000, .i32⟩ : BufTy).Contents (Elt F)) (nc : (⟨S1700000x1, .f32⟩ : BufTy).Contents (Elt F)) (b : (⟨S128, .f32⟩ : BufTy).Contents (Elt F)) : (⟨S100000x128, .f32⟩ : BufTy).Contents (Elt F) :=
  addf
    (Host.scatterAdd (F := F) scatter_S100000x128_S1700000x1_S1700000x128_1_0_0_1
      (broadcastInDim S100000x128 ![] bcast_S_S100000x128 (constant (F := F) S_ .f32 0x00000000#32))
      (broadcastInDim S1700000x1 ![0] bcast_S1700000_S1700000x1_0 d)
      (mulf (Host.gather gather_S100000x128_S1700000x1_S1700000x128_1_0_n_n_0_1_1128 h (wrapCol (F := F) s))
        (broadcastInDim S1700000x128 ![0, 1] bcast_S1700000x1_S1700000x128_0_1 nc)))
    (broadcastInDim S100000x128 ![0, 1] bcast_S1x128_S100000x128_0_1 (broadcastInDim S1x128 ![1] bcast_S128_S1x128_1 b))

/-- The round over the edge list `e`: its sources, targets and weights are the ones above. -/
def layer1 (h : (⟨S100000x128, .f32⟩ : BufTy).Contents (Elt F)) (e : (⟨S2x1600000, .i32⟩ : BufTy).Contents (Elt F)) (b : (⟨S128, .f32⟩ : BufTy).Contents (Elt F)) : (⟨S100000x128, .f32⟩ : BufTy).Contents (Elt F) :=
  round1 (F := F) h (src (F := F) e) (dst (F := F) e) (normCol (F := F) e) b

/-- The rectifier: the maximum with zero, entry by entry. -/
def relu (h : (⟨S100000x128, .f32⟩ : BufTy).Contents (Elt F)) : (⟨S100000x128, .f32⟩ : BufTy).Contents (Elt F) :=
  maximumf h (broadcastInDim S100000x128 ![] bcast_S_S100000x128 (constant (F := F) S_ .f32 0x00000000#32))

/-- The same round at width 64. -/
def round2 (o : (⟨S100000x64, .f32⟩ : BufTy).Contents (Elt F)) (s d : (⟨S1700000, .i32⟩ : BufTy).Contents (Elt F)) (nc : (⟨S1700000x1, .f32⟩ : BufTy).Contents (Elt F)) (b : (⟨S64, .f32⟩ : BufTy).Contents (Elt F)) : (⟨S100000x64, .f32⟩ : BufTy).Contents (Elt F) :=
  addf
    (Host.scatterAdd (F := F) scatter_S100000x64_S1700000x1_S1700000x64_1_0_0_1
      (broadcastInDim S100000x64 ![] bcast_S_S100000x64 (constant (F := F) S_ .f32 0x00000000#32))
      (broadcastInDim S1700000x1 ![0] bcast_S1700000_S1700000x1_0 d)
      (mulf (Host.gather gather_S100000x64_S1700000x1_S1700000x64_1_0_n_n_0_1_164 o (wrapCol (F := F) s))
        (broadcastInDim S1700000x64 ![0, 1] bcast_S1700000x1_S1700000x64_0_1 nc)))
    (broadcastInDim S100000x64 ![0, 1] bcast_S1x64_S100000x64_0_1 (broadcastInDim S1x64 ![1] bcast_S64_S1x64_1 b))

/-- That round over the edge list `e`. -/
def layer2 (o : (⟨S100000x64, .f32⟩ : BufTy).Contents (Elt F)) (e : (⟨S2x1600000, .i32⟩ : BufTy).Contents (Elt F)) (b : (⟨S64, .f32⟩ : BufTy).Contents (Elt F)) : (⟨S100000x64, .f32⟩ : BufTy).Contents (Elt F) :=
  round2 (F := F) o (src (F := F) e) (dst (F := F) e) (normCol (F := F) e) b

/-- The first dense product, `x · W1`: rows of 128 features against a 128 × 128 matrix. -/
def proj1 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The second dense product, `h · W2`: rows of 128 features against a 128 × 64 matrix. -/
def proj2 (h : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none h w

/-- The hidden features after the first round and the rectifier. -/
def hidden (x : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F)) : (⟨S100000x128, .f32⟩ : BufTy).Contents (Elt F) :=
  relu (F := F) (layer1 (F := F) (proj1 (F := F) x w1) e b1)

/-- The result: the second round applied to the hidden features' projection. -/
def out (x : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S100000x64, .f32⟩ : BufTy).Contents (Elt F) :=
  layer2 (F := F) (proj2 (F := F) (hidden (F := F) x e w1 b1) w2) e b2

end Cert.ReferenceIdeal.Spec

end
-- ==== Proof.BlockProduct.lean ====
/-
  A matrix product read at one entry, at the exact instance.

  Over the extended reals a `tpu.matmul` into a zero accumulator and the host's `dot_general` are both the plain
  sum over the contracted axis: entry `(r, c)` of `A · B` is `∑ k < 128, A (r, k) · B (k, c)`. The change of float
  format in front of the kernel's product is the identity there, and so is its reshape of a block to its own shape.
  Each product's dimension record indexes its operands through its own contraction index type; the one contracted
  axis has 128 positions, so the sum is re-indexed over `Fin 128`, and the operands' entries are then named by
  plain coordinates. Four records, one statement each: the kernel's two block products and the host's two
  whole-array products.
-/
import proofs.«130710_j1073741824486_1_alg».proof.Proof.Gen.KernelIdeal.Skeleton
import proofs.«130710_j1073741824486_1_alg».proof.Proof.Spec
import Idealize.ShloMosaic.Lib.ValueIdx
import Idealize.ShloMosaic.Lib.Pipeline.Value
import Idealize.ShloMosaic.PureOps.Ideal.Laws

noncomputable section

namespace Cert.BlockProduct

open Idealize.ShloMosaic

/-! ## K0: the first launch's block product (a 5000 × 128 block of rows against the 128 × 128 matrix) -/

/-- The left operand's row is the output's row. -/
theorem lrow_K0 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx j q 0).val = (j 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
/-- The left operand's column is the contracted position. -/
theorem lcol_K0 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx j q 1).val = (q ⟨0, by decide⟩).val :=
  Cert.KernelIdeal.dot_S5000x128_S128x128_S5000x128_1_0_0_1_n_n.lhsIdx_val_of_single rfl j q
/-- The right operand's row is the contracted position. -/
theorem rrow_K0 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx j q 0).val = (q ⟨0, by decide⟩).val :=
  Cert.KernelIdeal.dot_S5000x128_S128x128_S5000x128_1_0_0_1_n_n.rhsIdx_val_of_single rfl j q
/-- The right operand's column is the output's column. -/
theorem rcol_K0 (j : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx j q 1).val = (j 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

/-- Entry `(row of j, k)` of the left operand. -/
abbrev lq_K0 (j : Cert.KernelIdeal.S5000x128.Idx) (k : Fin 128) : Cert.KernelIdeal.S5000x128.Idx := fun a => match a with
  | ⟨0, _⟩ => ⟨(j 0).val, (j 0).isLt⟩
  | ⟨1, _⟩ => ⟨k.val, k.isLt⟩
/-- Entry `(k, column of j)` of the right operand. -/
abbrev rq_K0 (j : Cert.KernelIdeal.S5000x128.Idx) (k : Fin 128) : Cert.KernelIdeal.S128x128.Idx := fun a => match a with
  | ⟨0, _⟩ => ⟨k.val, k.isLt⟩
  | ⟨1, _⟩ => ⟨(j 1).val, (j 1).isLt⟩

/-- The product's sum over the contraction's index type is the sum over `k < 128` of row entry times column entry. -/
theorem sum_K0 {φ₁ φ₂ : FTy} (l : FVec Ideal Cert.KernelIdeal.S5000x128 φ₁) (r : FVec Ideal Cert.KernelIdeal.S128x128 φ₂) (j : Cert.KernelIdeal.S5000x128.Idx) :
    ∑ q : Cert.KernelIdeal.dot_S5000x128_S128x128_S5000x128_1_0_0_1_n_n.contr.Idx, l (Cert.KernelIdeal.dot_S5000x128_S128x128_S5000x128_1_0_0_1_n_n.lhsIdx j q) * r (Cert.KernelIdeal.dot_S5000x128_S128x128_S5000x128_1_0_0_1_n_n.rhsIdx j q) = ∑ k : Fin 128, l (lq_K0 j k) * r (rq_K0 j k) := by
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx j ((ValueIdx.contrEquiv1 Cert.KernelIdeal.dot_S5000x128_S128x128_S5000x128_1_0_0_1_n_n 128 rfl rfl).symm k) = lq_K0 j k := funext fun a => Fin.ext (by
    match a with
    | ⟨0, _⟩ => exact lrow_K0 _ _
    | ⟨1, _⟩ => exact (lcol_K0 _ _).trans hk)
  have er : Cert.KernelIdeal.dot_S5000x128_S128x128_S5000x128_1_0_0_1_n_n.rhsIdx j ((ValueIdx.contrEquiv1 Cert.KernelIdeal.dot_S5000x128_S128x128_S5000x128_1_0_0_1_n_n 128 rfl rfl).symm k) = rq_K0 j k := funext fun a => Fin.ext (by
    match a with
    | ⟨0, _⟩ => exact (rrow_K0 _ _).trans hk
    | ⟨1, _⟩ => exact rcol_K0 _ _)
  rw [el, er]

/-! ## K1: the second launch's block product (a 5000 × 128 block of rows against the 128 × 64 matrix) -/

/-- The left operand's row is the output's row. -/
theorem lrow_K1 (j : Cert.KernelIdeal.S5000x64.Idx) (q : Cert.KernelIdeal.dot_S5000x128_S128x64_S5000x64_1_0_0_1_n_n.contr.Idx) : (Cert.KernelIdeal.dot_S5000x128_S128x64_S5000x64_1_0_0_1_n_n.lhsIdx j q 0).val = (j 0).val := by
  unfold DotDims.lhsIdx
  rw [dif_neg (show ¬(0 : Fin Cert.KernelIdeal.S5000x128.rank) ∈ Cert.KernelIdeal.dot_S5000x128_S128x64_S5000x64_1_0_0_1_n_n.lhsBatch by decide), dif_pos (show (0 : Fin Cert.KernelIdeal.S5000x128.rank) ∈ Cert.KernelIdeal.dot_S5000x128_S128x64_S5000x64_1_0_0_1_n_n.lhsNonContracting by decide)]
  rfl
/-- The left operand's column is the contracted position. -/
theorem lcol_K1 (j : Cert.KernelIdeal.S5000x64.Idx) (q : Cert.KernelIdeal.dot_S5000x128_S128x64_S5000x64_1_0_0_1_n_n.contr.Idx) : (Cert.KernelIdeal.dot_S5000x128_S128x64_S5000x64_1_0_0_1_n_n.lhsIdx j q 1).val = (q ⟨0, by decide⟩).val :=
  Cert.KernelIdeal.dot_S5000x128_S128x64_S5000x64_1_0_0_1_n_n.lhsIdx_val_of_single rfl j q
/-- The right operand's row is the contracted position. -/
theorem rrow_K1 (j : Cert.KernelIdeal.S5000x64.Idx) (q : Cert.KernelIdeal.dot_S5000x128_S128x64_S5000x64_1_0_0_1_n_n.contr.Idx) : (Cert.KernelIdeal.dot_S5000x128_S128x64_S5000x64_1_0_0_1_n_n.rhsIdx j q 0).val = (q ⟨0, by decide⟩).val :=
  Cert.KernelIdeal.dot_S5000x128_S128x64_S5000x64_1_0_0_1_n_n.rhsIdx_val_of_single rfl j q
/-- The right operand's column is the output's column. -/
theorem rcol_K1 (j : Cert.KernelIdeal.S5000x64.Idx) (q : Cert.KernelIdeal.dot_S5000x128_S128x64_S5000x64_1_0_0_1_n_n.contr.Idx) : (Cert.KernelIdeal.dot_S5000x128_S128x64_S5000x64_1_0_0_1_n_n.rhsIdx j q 1).val = (j 1).val := by
  unfold DotDims.rhsIdx
  rw [dif_neg (show ¬(1 : Fin Cert.KernelIdeal.S128x64.rank) ∈ Cert.KernelIdeal.dot_S5000x128_S128x64_S5000x64_1_0_0_1_n_n.rhsBatch by decide), dif_pos (show (1 : Fin Cert.KernelIdeal.S128x64.rank) ∈ Cert.KernelIdeal.dot_S5000x128_S128x64_S5000x64_1_0_0_1_n_n.rhsNonContracting by decide)]
  rfl

/-- Entry `(row of j, k)` of the left operand. -/
abbrev lq_K1 (j : Cert.KernelIdeal.S5000x64.Idx) (k : Fin 128) : Cert.KernelIdeal.S5000x128.Idx := fun a => match a with
  | ⟨0, _⟩ => ⟨(j 0).val, (j 0).isLt⟩
  | ⟨1, _⟩ => ⟨k.val, k.isLt⟩
/-- Entry `(k, column of j)` of the right operand. -/
abbrev rq_K1 (j : Cert.KernelIdeal.S5000x64.Idx) (k : Fin 128) : Cert.KernelIdeal.S128x64.Idx := fun a => match a with
  | ⟨0, _⟩ => ⟨k.val, k.isLt⟩
  | ⟨1, _⟩ => ⟨(j 1).val, (j 1).isLt⟩

/-- The product's sum over the contraction's index type is the sum over `k < 128` of row entry times column entry. -/
theorem sum_K1 {φ₁ φ₂ : FTy} (l : FVec Ideal Cert.KernelIdeal.S5000x128 φ₁) (r : FVec Ideal Cert.KernelIdeal.S128x64 φ₂) (j : Cert.KernelIdeal.S5000x64.Idx) :
    ∑ q : Cert.KernelIdeal.dot_S5000x128_S128x64_S5000x64_1_0_0_1_n_n.contr.Idx, l (Cert.KernelIdeal.dot_S5000x128_S128x64_S5000x64_1_0_0_1_n_n.lhsIdx j q) * r (Cert.KernelIdeal.dot_S5000x128_S128x64_S5000x64_1_0_0_1_n_n.rhsIdx j q) = ∑ k : Fin 128, l (lq_K1 j k) * r (rq_K1 j k) := by
  rw [← Equiv.sum_comp (ValueIdx.contrEquiv1 Cert.KernelIdeal.dot_S5000x128_S128x64_S5000x64_1_0_0_1_n_n 128 rfl rfl).symm]
  refine Finset.sum_congr rfl fun k _ => ?_
  have hk := ValueIdx.contrEquiv1_symm_val Cert.KernelIdeal.dot_S5000x128_S128x64_S5000x64_1_0_0_1_n_n 128 rfl rfl k
  have el : Cert.KernelIdeal.dot_S5000x128_S128x64_S5000x64_1_0_0_1_n_n.lhsIdx j ((ValueIdx.contrEquiv1 Cert.KernelIdeal.dot_S5000x128_S128x64_S5000x64_1_0_0_1_n_n 128 rfl rfl).symm k) = lq_K1 j k := funext fun a => Fin.ext (by
    match a with
    | ⟨0, _⟩ => exact lrow_K1 _ _
    | ⟨1, _⟩ => exact (lcol_K1 _ _).trans hk)
  have er : Cert.KernelIdeal.dot_S5000x128_S128x64_S5000x64_1_0_0_1_n_n.rhsIdx j ((ValueIdx.contrEquiv1 Cert.KernelIdeal.dot_S5000x128_S128x64_S5000x64_1_0_0_1_n_n 128 rfl rfl).symm k) = rq_K1 j k := funext fun a => Fin.ext (by
    match a with
    | ⟨0, _⟩ => exact (rrow_K1 _ _).trans hk
    | ⟨1, _⟩ => exact rcol_K1 _ _)
  rw [el, er]

/-! ## R0: the host's first product (all 100000 rows against the 128 × 128 matrix) -/

/-- The left operand's row is the output's row. -/
theorem lrow_R0 (j : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx j q 0).val = (j 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- The left operand's column is the contracted position. -/
theorem lcol_R0 (j : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx j q 1).val = (q ⟨0, by decide⟩).val :=
  Cert.ReferenceIdeal.dot_S100000x128_S128x128_S100000x128_1_0_0_1_n_n.lhsIdx_val_of_single rfl j q
/-- The right operand's row is the contracted position. -/
theorem rrow_R0 (j : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx j q 0).val = (q ⟨0, by decide⟩).val :=
  Cert.ReferenceIdeal.dot_S100000x128_S128x128_S100000x128_1_0_0_1_n_n.rhsIdx_val_of_single rfl j q
/-- The right operand's column is the output's column. -/
theorem rcol_R0 (j : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx j q 1).val = (j 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry `(row of j, k)` of the left operand. -/
abbrev lq_R0 (j : Cert.ReferenceIdeal.S100000x128.Idx) (k : Fin 128) : Cert.ReferenceIdeal.S100000x128.Idx := fun a => match a with
  | ⟨0, _⟩ => ⟨(j 0).val, (j 0).isLt⟩
  | ⟨1, _⟩ => ⟨k.val, k.isLt⟩
/-- Entry `(k, column of j)` of the right operand. -/
abbrev rq_R0 (j : Cert.ReferenceIdeal.S100000x128.Idx) (k : Fin 128) : Cert.ReferenceIdeal.S128x128.Idx := fun a => match a with
  | ⟨0, _⟩ => ⟨k.val, k.isLt⟩
  | ⟨1, _⟩ => ⟨(j 1).val, (j 1).isLt⟩

/-- The product's sum over the contraction's index type is the sum over `k < 128` of row entry times column entry. -/
theorem sum_R0 {φ₁ φ₂ : FTy} (l : FVec Ideal Cert.ReferenceIdeal.S100000x128 φ₁) (r : FVec Ideal Cert.ReferenceIdeal.S128x128 φ₂) (j : Cert.ReferenceIdeal.S100000x128.Idx) :
    ∑ q : Cert.ReferenceIdeal.dot_S100000x128_S128x128_S100000x128_1_0_0_1_n_n.contr.Idx, l (Cert.ReferenceIdeal.dot_S100000x128_S128x128_S100000x128_1_0_0_1_n_n.lhsIdx j q) * r (Cert.ReferenceIdeal.dot_S100000x128_S128x128_S100000x128_1_0_0_1_n_n.rhsIdx j q) = ∑ k : Fin 128, l (lq_R0 j k) * r (rq_R0 j k) := by
  rw [← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx j ((ValueIdx.contrEquiv1 Cert.ReferenceIdeal.dot_S100000x128_S128x128_S100000x128_1_0_0_1_n_n 128 rfl rfl).symm k) = lq_R0 j k := funext fun a => Fin.ext (by
    match a with
    | ⟨0, _⟩ => exact lrow_R0 _ _
    | ⟨1, _⟩ => exact (lcol_R0 _ _).trans hk)
  have er : Cert.ReferenceIdeal.dot_S100000x128_S128x128_S100000x128_1_0_0_1_n_n.rhsIdx j ((ValueIdx.contrEquiv1 Cert.ReferenceIdeal.dot_S100000x128_S128x128_S100000x128_1_0_0_1_n_n 128 rfl rfl).symm k) = rq_R0 j k := funext fun a => Fin.ext (by
    match a with
    | ⟨0, _⟩ => exact (rrow_R0 _ _).trans hk
    | ⟨1, _⟩ => exact rcol_R0 _ _)
  rw [el, er]

/-! ## R1: the host's second product (all 100000 rows against the 128 × 64 matrix) -/

/-- The left operand's row is the output's row. -/
theorem lrow_R1 (j : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx j q 0).val = (j 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- The left operand's column is the contracted position. -/
theorem lcol_R1 (j : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.lhsIdx j q 1).val = (q ⟨0, by decide⟩).val :=
  Cert.ReferenceIdeal.dot_S100000x128_S128x64_S100000x64_1_0_0_1_n_n.lhsIdx_val_of_single rfl j q
/-- The right operand's row is the contracted position. -/
theorem rrow_R1 (j : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx j q 0).val = (q ⟨0, by decide⟩).val :=
  Cert.ReferenceIdeal.dot_S100000x128_S128x64_S100000x64_1_0_0_1_n_n.rhsIdx_val_of_single rfl j q
/-- The right operand's column is the output's column. -/
theorem rcol_R1 (j : Cert.ReferenceIdeal.S100000x64.Idx) (q : Cert.ReferenceIdeal.dot_S100000x128_S128x64_S100000x64_1_0_0_1_n_n.contr.Idx) : (Cert.ReferenceIdeal.dot_S100000x128_S128x64_S100000x64_1_0_0_1_n_n.rhsIdx j q 1).val = (j 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Entry `(row of j, k)` of the left operand. -/
abbrev lq_R1 (j : Cert.ReferenceIdeal.S100000x64.Idx) (k : Fin 128) : Cert.ReferenceIdeal.S100000x128.Idx := fun a => match a with
  | ⟨0, _⟩ => ⟨(j 0).val, (j 0).isLt⟩
  | ⟨1, _⟩ => ⟨k.val, k.isLt⟩
/-- Entry `(k, column of j)` of the right operand. -/
abbrev rq_R1 (j : Cert.ReferenceIdeal.S100000x64.Idx) (k : Fin 128) : Cert.ReferenceIdeal.S128x64.Idx := fun a => match a with
  | ⟨0, _⟩ => ⟨k.val, k.isLt⟩
  | ⟨1, _⟩ => ⟨(j 1).val, (j 1).isLt⟩

/-- The product's sum over the contraction's index type is the sum over `k < 128` of row entry times column entry. -/
theorem sum_R1 {φ₁ φ₂ : FTy} (l : FVec Ideal Cert.ReferenceIdeal.S100000x128 φ₁) (r : FVec Ideal Cert.ReferenceIdeal.S128x64 φ₂) (j : Cert.ReferenceIdeal.S100000x64.Idx) :
    ∑ q : Cert.ReferenceIdeal.dot_S100000x128_S128x64_S100000x64_1_0_0_1_n_n.contr.Idx, l (Cert.ReferenceIdeal.dot_S100000x128_S128x64_S100000x64_1_0_0_1_n_n.lhsIdx j q) * r (Cert.ReferenceIdeal.dot_S100000x128_S128x64_S100000x64_1_0_0_1_n_n.rhsIdx j q) = ∑ k : Fin 128, l (lq_R1 j k) * r (rq_R1 j k) := by
  rw [← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx j ((ValueIdx.contrEquiv1 Cert.ReferenceIdeal.dot_S100000x128_S128x64_S100000x64_1_0_0_1_n_n 128 rfl rfl).symm k) = lq_R1 j k := funext fun a => Fin.ext (by
    match a with
    | ⟨0, _⟩ => exact lrow_R1 _ _
    | ⟨1, _⟩ => exact (lcol_R1 _ _).trans hk)
  have er : Cert.ReferenceIdeal.dot_S100000x128_S128x64_S100000x64_1_0_0_1_n_n.rhsIdx j ((ValueIdx.contrEquiv1 Cert.ReferenceIdeal.dot_S100000x128_S128x64_S100000x64_1_0_0_1_n_n 128 rfl rfl).symm k) = rq_R1 j k := funext fun a => Fin.ext (by
    match a with
    | ⟨0, _⟩ => exact (rrow_R1 _ _).trans hk
    | ⟨1, _⟩ => exact rcol_R1 _ _)
  rw [el, er]

/-! ## The four products at an entry -/

/-- The first launch's body, entry by entry: the block's row against the matrix's column. -/
theorem pay0_apply (x0 : Vec Ideal Cert.KernelIdeal.S5000x128 .f32) (x1 : Vec Ideal Cert.KernelIdeal.S128x128 .f32) (j : Cert.KernelIdeal.S5000x128.Idx) :
    Cert.KernelIdeal.Gen.k0_pay1 (F := Ideal) x0 x1 j = ∑ k : Fin 128, x0 (lq_K0 j k) * x1 (rq_K0 j k) := by
  unfold Cert.KernelIdeal.Gen.k0_pay1
  exact (Ideal.matmul_constant_zero_apply Cert.KernelIdeal.dot_S5000x128_S128x128_S5000x128_1_0_0_1_n_n none _ _ j).trans (sum_K0 (φ₁ := .bf16) (φ₂ := .bf16) _ _ j)

/-- The second launch's body, entry by entry (its reshape of the block to its own shape changes nothing). -/
theorem pay1_apply (x0 : Vec Ideal Cert.KernelIdeal.S5000x128 .f32) (x1 : Vec Ideal Cert.KernelIdeal.S128x64 .f32) (j : Cert.KernelIdeal.S5000x64.Idx) :
    Cert.KernelIdeal.Gen.k1_pay1 (F := Ideal) x0 x1 j = ∑ k : Fin 128, x0 (lq_K1 j k) * x1 (rq_K1 j k) := by
  unfold Cert.KernelIdeal.Gen.k1_pay1
  refine (Ideal.matmul_constant_zero_apply Cert.KernelIdeal.dot_S5000x128_S128x64_S5000x64_1_0_0_1_n_n none _ _ j).trans ?_
  refine (sum_K1 (φ₁ := .bf16) (φ₂ := .bf16) _ _ j).trans ?_
  refine Finset.sum_congr rfl fun k _ => ?_
  exact congrArg (· * x1 (rq_K1 j k)) (congrFun (shapeCast_self x0 Cert.KernelIdeal.Facts₀.shapeCasts_S5000x128_S5000x128) (lq_K1 j k))

/-- The host's first product, entry by entry. -/
theorem proj1_apply (x : (⟨Cert.ReferenceIdeal.S100000x128, .f32⟩ : BufTy).Contents (Elt Ideal)) (w : (⟨Cert.ReferenceIdeal.S128x128, .f32⟩ : BufTy).Contents (Elt Ideal)) (i : Cert.ReferenceIdeal.S100000x128.Idx) :
    Cert.ReferenceIdeal.Spec.proj1 (F := Ideal) x w i = ∑ k : Fin 128, x (lq_R0 i k) * w (rq_R0 i k) := by
  unfold Cert.ReferenceIdeal.Spec.proj1
  simp only [Host.dotGeneral]
  rw [Ideal.dotGeneral_apply]
  exact sum_R0 x w i

/-- The host's second product, entry by entry. -/
theorem proj2_apply (h : (⟨Cert.ReferenceIdeal.S100000x128, .f32⟩ : BufTy).Contents (Elt Ideal)) (w : (⟨Cert.ReferenceIdeal.S128x64, .f32⟩ : BufTy).Contents (Elt Ideal)) (i : Cert.ReferenceIdeal.S100000x64.Idx) :
    Cert.ReferenceIdeal.Spec.proj2 (F := Ideal) h w i = ∑ k : Fin 128, h (lq_R1 i k) * w (rq_R1 i k) := by
  unfold Cert.ReferenceIdeal.Spec.proj2
  simp only [Host.dotGeneral]
  rw [Ideal.dotGeneral_apply]
  exact sum_R1 h w i

end Cert.BlockProduct

end
-- ==== Proof.Product0.lean ====
/-
  What the first launch (`x · W1`) leaves in its output array, at the exact instance: the host's whole product.

  The launch walks 20 grid points. At point `t` it fetches rows `5000·t … 5000·t + 4999` of the left array (all 128
  columns) and the whole right matrix, multiplies them, and writes the 5000 × 128 result back as rows
  `5000·t … 5000·t + 4999` of the output. Entry `(r, c)` of a block's product is the sum over `k < 128` of the
  block's `(r, k)` against the matrix's `(k, c)`; the block's row `r` is the array's row `5000·t + r`, so this is
  entry `(5000·t + r, c)` of the product of the WHOLE arrays. The 20 blocks tile the 100000 rows, so after the
  launch the output array is that whole product, entry by entry — whatever the two input arrays held when the
  launch was entered (`V`).
-/
import proofs.«130710_j1073741824486_1_alg».proof.Proof.Gen.KernelIdeal.Frame
import proofs.«130710_j1073741824486_1_alg».proof.Proof.BlockProduct

set_option maxRecDepth 16384

noncomputable section

namespace Cert.KernelIdeal.Product0

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin : (![0, 0] : Fin 2 → Nat) = fun _ => 0 := funext fun a => by fin_cases a <;> rfl

/-- The printed index maps, decided over the 20 grid points: the left window's block row is the output's, every
    other block coordinate is 0, and the output's block row stays below 20. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block row below 20 is some grid point's. -/
theorem blockRowOnto : ∀ q0 : Fin 20, ∃ t : Fin cfg0.N, win0_2.index t = ![q0.val, 0] :=
  (by decide +kernel : ∀ q0 : Fin 20, ∃ t : Fin grid0.N, win0_2.index t = ![q0.val, 0])

/-- WHAT POINT `t` WRITES BACK is block `t` of the whole product of the two arrays as the launch finds them. -/
theorem flushed_eq (c : Dev nD) (t : Fin cfg0.N) :
    (dat0 (F := Ideal) V c).flushed 2 t = ((cfg0.win 2).blk t).view.read (Elt Ideal)
      (Cert.ReferenceIdeal.Spec.proj1 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blockIndices t
  funext j
  show k0_pay1 (iblk0 V c 0 t) (iblk0 V c 1 t) j
    = Cert.ReferenceIdeal.Spec.proj1 (F := Ideal) (V c main_arg0) (V c main_arg2) (((cfg0.win 2).blk t).view.emb j)
  refine (Cert.BlockProduct.pay0_apply _ _ _).trans ?_
  refine Eq.trans ?_ (Cert.BlockProduct.proj1_apply _ _ _).symm
  refine Finset.sum_congr rfl fun k _ => ?_
  have h0 : ((cfg0.win 0).blk t).view.emb (Cert.BlockProduct.lq_K0 j k) = Cert.BlockProduct.lq_R0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (Cert.BlockProduct.rq_K0 j k) = Cert.BlockProduct.rq_R0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have g0 : iblk0 V c 0 t (Cert.BlockProduct.lq_K0 j k) = V c main_arg0 (Cert.BlockProduct.lq_R0 (((cfg0.win 2).blk t).view.emb j) k) :=
    congrArg (V c main_arg0) h0
  have g1 : iblk0 V c 1 t (Cert.BlockProduct.rq_K0 j k) = V c main_arg2 (Cert.BlockProduct.rq_R0 (((cfg0.win 2).blk t).view.emb j) k) :=
    congrArg (V c main_arg2) h1
  rw [g0, g1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- The blocks tile the array: row `r` lies in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockRowOnto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the launch is the whole product of the two arrays the launch found. -/
theorem final (c : Dev nD) : (dat0 (F := Ideal) V c).arrAt 2 cfg0.N
    = Cert.ReferenceIdeal.Spec.proj1 (F := Ideal) (V c main_arg0) (V c main_arg2) :=
  (dat0 V c).arrAt_eq_of_cover 2 _ (fun t _ => flushed_eq V c t) cover

end Cert.KernelIdeal.Product0

end
-- ==== Proof.Product1.lean ====
/-
  What the second launch (`h · W2`) leaves in its output array, at the exact instance: the host's whole product.

  The launch walks 20 grid points. At point `t` it fetches rows `5000·t … 5000·t + 4999` of the left array (all 128
  columns) and the whole right matrix, multiplies them, and writes the 5000 × 64 result back as rows
  `5000·t … 5000·t + 4999` of the output. Entry `(r, c)` of a block's product is the sum over `k < 128` of the
  block's `(r, k)` against the matrix's `(k, c)`; the block's row `r` is the array's row `5000·t + r`, so this is
  entry `(5000·t + r, c)` of the product of the WHOLE arrays. The 20 blocks tile the 100000 rows, so after the
  launch the output array is that whole product, entry by entry — whatever the two input arrays held when the
  launch was entered (`V`).
-/
import proofs.«130710_j1073741824486_1_alg».proof.Proof.Gen.KernelIdeal.Frame
import proofs.«130710_j1073741824486_1_alg».proof.Proof.BlockProduct

set_option maxRecDepth 16384

noncomputable section

namespace Cert.KernelIdeal.Product1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin : (![0, 0] : Fin 2 → Nat) = fun _ => 0 := funext fun a => by fin_cases a <;> rfl

/-- The printed index maps, decided over the 20 grid points: the left window's block row is the output's, every
    other block coordinate is 0, and the output's block row stays below 20. -/
theorem blockIndices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every block row below 20 is some grid point's. -/
theorem blockRowOnto : ∀ q0 : Fin 20, ∃ t : Fin cfg1.N, win1_2.index t = ![q0.val, 0] :=
  (by decide +kernel : ∀ q0 : Fin 20, ∃ t : Fin grid1.N, win1_2.index t = ![q0.val, 0])

/-- WHAT POINT `t` WRITES BACK is block `t` of the whole product of the two arrays as the launch finds them. -/
theorem flushed_eq (c : Dev nD) (t : Fin cfg1.N) :
    (dat1 (F := Ideal) V c).flushed 2 t = ((cfg1.win 2).blk t).view.read (Elt Ideal)
      (Cert.ReferenceIdeal.Spec.proj2 (F := Ideal) (V c main_v52) (V c main_arg4)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x64) origin]
  obtain ⟨e0, e1, e2, e3, e4, e5⟩ := blockIndices t
  funext j
  show k1_pay1 (iblk1 V c 0 t) (iblk1 V c 1 t) j
    = Cert.ReferenceIdeal.Spec.proj2 (F := Ideal) (V c main_v52) (V c main_arg4) (((cfg1.win 2).blk t).view.emb j)
  refine (Cert.BlockProduct.pay1_apply _ _ _).trans ?_
  refine Eq.trans ?_ (Cert.BlockProduct.proj2_apply _ _ _).symm
  refine Finset.sum_congr rfl fun k _ => ?_
  have h0 : ((cfg1.win 0).blk t).view.emb (Cert.BlockProduct.lq_K1 j k) = Cert.BlockProduct.lq_R1 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (Cert.BlockProduct.rq_K1 j k) = Cert.BlockProduct.rq_R1 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  have g0 : iblk1 V c 0 t (Cert.BlockProduct.lq_K1 j k) = V c main_v52 (Cert.BlockProduct.lq_R1 (((cfg1.win 2).blk t).view.emb j) k) :=
    congrArg (V c main_v52) h0
  have g1 : iblk1 V c 1 t (Cert.BlockProduct.rq_K1 j k) = V c main_arg4 (Cert.BlockProduct.rq_R1 (((cfg1.win 2).blk t).view.emb j) k) :=
    congrArg (V c main_arg4) h1
  rw [g0, g1]

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- The blocks tile the array: row `r` lies in the block of point `r / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := blockRowOnto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE OUTPUT ARRAY after the launch is the whole product of the two arrays the launch found. -/
theorem final (c : Dev nD) : (dat1 (F := Ideal) V c).arrAt 2 cfg1.N
    = Cert.ReferenceIdeal.Spec.proj2 (F := Ideal) (V c main_v52) (V c main_arg4) :=
  (dat1 V c).arrAt_eq_of_cover 2 _ (fun t _ => flushed_eq V c t) cover

end Cert.KernelIdeal.Product1

end
-- ==== Proof.Stages.lean ====
/-
  The idealized kernel's result, stage by stage.

  The kernel program is: a stretch of host operations that builds, from the edge list, the messages' sources, their
  targets and their weights; a launch computing `x · W1`; a stretch that runs one round of message passing at width
  128 over that product and rectifies it; a launch computing `h · W2`; and a last stretch that runs the round at
  width 64. Each host stretch is read here at an ARBITRARY starting contents `V`: what it writes is the
  specification's function of the buffers it reads, and the buffers later stages still need are left as they were.
  Then the run's boundary contents are followed: before the first launch (`W3`), after it (`W4`, its output the whole
  product by the launch's closed form), before and after the second launch (`W6`, `W7`) and at the return (`W8`), where
  the result buffer holds the specification's `out` of the six arguments. The kernel builds the sources, targets and
  weights once and uses them in both rounds; nothing between their construction and their last use writes them.
-/
import proofs.«130710_j1073741824486_1_alg».proof.Proof.Gen.KernelIdeal.Frame
import proofs.«130710_j1073741824486_1_alg».proof.Proof.Product0
import proofs.«130710_j1073741824486_1_alg».proof.Proof.Product1
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-! ## The host stretches, from any contents -/

section Stretches

variable {F : FTy → Type} [FloatOps F] (V : Valuation τ sig (Elt F))

set_option maxHeartbeats 4000000 in
/-- Before the first launch the sources' buffer is written with the specification's `src` of the edge list. -/
theorem pre_src : after hostOps0_2 (after hostOps0_1 (after hostOps0 V)) (Proc.devRef .tc main_v5) = Cert.ReferenceIdeal.Spec.src (F := F) (V (Proc.devRef .tc main_arg1)) := by
  dsimp only [hostOps0_2, hostOps0_1, hostOps0]
  after_results_simp <;> rfl

set_option maxHeartbeats 4000000 in
/-- … the targets' buffer with `dst`, -/
theorem pre_dst : after hostOps0_2 (after hostOps0_1 (after hostOps0 V)) (Proc.devRef .tc main_v6) = Cert.ReferenceIdeal.Spec.dst (F := F) (V (Proc.devRef .tc main_arg1)) := by
  dsimp only [hostOps0_2, hostOps0_1, hostOps0]
  after_results_simp <;> rfl

set_option maxHeartbeats 4000000 in
/-- … and the weights' buffer with `normCol`: the degree count, its inverse square root where positive, the product
    of the two endpoints' values, as a column. -/
theorem pre_nc : after hostOps0_2 (after hostOps0_1 (after hostOps0 V)) (Proc.devRef .tc main_v35) = Cert.ReferenceIdeal.Spec.normCol (F := F) (V (Proc.devRef .tc main_arg1)) := by
  dsimp only [hostOps0_2, hostOps0_1, hostOps0]
  after_results_simp <;> rfl

set_option maxHeartbeats 4000000 in
/-- The first stretch does not write `main_arg0`. -/
theorem pre_keep_main_arg0 : after hostOps0_2 (after hostOps0_1 (after hostOps0 V)) (Proc.devRef .tc main_arg0) = V (Proc.devRef .tc main_arg0) := by
  dsimp only [hostOps0_2, hostOps0_1, hostOps0]
  after_results_simp <;> rfl

set_option maxHeartbeats 4000000 in
/-- The first stretch does not write `main_arg2`. -/
theorem pre_keep_main_arg2 : after hostOps0_2 (after hostOps0_1 (after hostOps0 V)) (Proc.devRef .tc main_arg2) = V (Proc.devRef .tc main_arg2) := by
  dsimp only [hostOps0_2, hostOps0_1, hostOps0]
  after_results_simp <;> rfl

set_option maxHeartbeats 4000000 in
/-- The first stretch does not write `main_arg3`. -/
theorem pre_keep_main_arg3 : after hostOps0_2 (after hostOps0_1 (after hostOps0 V)) (Proc.devRef .tc main_arg3) = V (Proc.devRef .tc main_arg3) := by
  dsimp only [hostOps0_2, hostOps0_1, hostOps0]
  after_results_simp <;> rfl

set_option maxHeartbeats 4000000 in
/-- The first stretch does not write `main_arg4`. -/
theorem pre_keep_main_arg4 : after hostOps0_2 (after hostOps0_1 (after hostOps0 V)) (Proc.devRef .tc main_arg4) = V (Proc.devRef .tc main_arg4) := by
  dsimp only [hostOps0_2, hostOps0_1, hostOps0]
  after_results_simp <;> rfl

set_option maxHeartbeats 4000000 in
/-- The first stretch does not write `main_arg5`. -/
theorem pre_keep_main_arg5 : after hostOps0_2 (after hostOps0_1 (after hostOps0 V)) (Proc.devRef .tc main_arg5) = V (Proc.devRef .tc main_arg5) := by
  dsimp only [hostOps0_2, hostOps0_1, hostOps0]
  after_results_simp <;> rfl

set_option maxHeartbeats 4000000 in
/-- Between the launches: one round at width 128 over the first product's array, then the rectifier. -/
theorem mid_hidden : after hostOps1_1 (after hostOps1 V) (Proc.devRef .tc main_v52)
    = Cert.ReferenceIdeal.Spec.relu (F := F) (Cert.ReferenceIdeal.Spec.round1 (F := F) (V (Proc.devRef .tc main_v36)) (V (Proc.devRef .tc main_v5)) (V (Proc.devRef .tc main_v6)) (V (Proc.devRef .tc main_v35)) (V (Proc.devRef .tc main_arg3))) := by
  dsimp only [hostOps1_1, hostOps1]
  after_results_simp <;> rfl

set_option maxHeartbeats 4000000 in
/-- The middle stretch does not write `main_v5`. -/
theorem mid_keep_main_v5 : after hostOps1_1 (after hostOps1 V) (Proc.devRef .tc main_v5) = V (Proc.devRef .tc main_v5) := by
  dsimp only [hostOps1_1, hostOps1]
  after_results_simp <;> rfl

set_option maxHeartbeats 4000000 in
/-- The middle stretch does not write `main_v6`. -/
theorem mid_keep_main_v6 : after hostOps1_1 (after hostOps1 V) (Proc.devRef .tc main_v6) = V (Proc.devRef .tc main_v6) := by
  dsimp only [hostOps1_1, hostOps1]
  after_results_simp <;> rfl

set_option maxHeartbeats 4000000 in
/-- The middle stretch does not write `main_v35`. -/
theorem mid_keep_main_v35 : after hostOps1_1 (after hostOps1 V) (Proc.devRef .tc main_v35) = V (Proc.devRef .tc main_v35) := by
  dsimp only [hostOps1_1, hostOps1]
  after_results_simp <;> rfl

set_option maxHeartbeats 4000000 in
/-- The middle stretch does not write `main_arg4`. -/
theorem mid_keep_main_arg4 : after hostOps1_1 (after hostOps1 V) (Proc.devRef .tc main_arg4) = V (Proc.devRef .tc main_arg4) := by
  dsimp only [hostOps1_1, hostOps1]
  after_results_simp <;> rfl

set_option maxHeartbeats 4000000 in
/-- The middle stretch does not write `main_arg5`. -/
theorem mid_keep_main_arg5 : after hostOps1_1 (after hostOps1 V) (Proc.devRef .tc main_arg5) = V (Proc.devRef .tc main_arg5) := by
  dsimp only [hostOps1_1, hostOps1]
  after_results_simp <;> rfl

set_option maxHeartbeats 4000000 in
/-- After the second launch: the round at width 64 over the second product's array. -/
theorem tail_out : after hostOps2 V (Proc.devRef .tc main_v68)
    = Cert.ReferenceIdeal.Spec.round2 (F := F) (V (Proc.devRef .tc main_v53)) (V (Proc.devRef .tc main_v5)) (V (Proc.devRef .tc main_v6)) (V (Proc.devRef .tc main_v35)) (V (Proc.devRef .tc main_arg5)) := by
  dsimp only [hostOps2]
  after_results_simp <;> rfl

end Stretches

/-! ## The boundaries of the run -/

variable (m : (ℓ : Loc nD τ sig) → Buf (Elt Ideal) ℓ) (ρ : Dev nD → PrngReg) (c : Dev nD)

/-! ### Before the first launch -/

theorem W3_src : W3 m ρ c (Proc.devRef .tc main_v5) = Cert.ReferenceIdeal.Spec.src (F := Ideal) (m ((c : Thread nD τ).loc main_arg1)) := pre_src (W0 m ρ c)
theorem W3_dst : W3 m ρ c (Proc.devRef .tc main_v6) = Cert.ReferenceIdeal.Spec.dst (F := Ideal) (m ((c : Thread nD τ).loc main_arg1)) := pre_dst (W0 m ρ c)
theorem W3_nc : W3 m ρ c (Proc.devRef .tc main_v35) = Cert.ReferenceIdeal.Spec.normCol (F := Ideal) (m ((c : Thread nD τ).loc main_arg1)) := pre_nc (W0 m ρ c)
theorem W3_arg0 : W3 m ρ c (Proc.devRef .tc main_arg0) = (m ((c : Thread nD τ).loc main_arg0)) := pre_keep_main_arg0 (W0 m ρ c)
theorem W3_arg2 : W3 m ρ c (Proc.devRef .tc main_arg2) = (m ((c : Thread nD τ).loc main_arg2)) := pre_keep_main_arg2 (W0 m ρ c)
theorem W3_arg3 : W3 m ρ c (Proc.devRef .tc main_arg3) = (m ((c : Thread nD τ).loc main_arg3)) := pre_keep_main_arg3 (W0 m ρ c)
theorem W3_arg4 : W3 m ρ c (Proc.devRef .tc main_arg4) = (m ((c : Thread nD τ).loc main_arg4)) := pre_keep_main_arg4 (W0 m ρ c)
theorem W3_arg5 : W3 m ρ c (Proc.devRef .tc main_arg5) = (m ((c : Thread nD τ).loc main_arg5)) := pre_keep_main_arg5 (W0 m ρ c)

/-! ### After the first launch: its output is the whole product; it writes nothing else -/

theorem W4_proj : W4 m ρ c (Proc.devRef .tc main_v36) = Cert.ReferenceIdeal.Spec.proj1 (F := Ideal) (m ((c : Thread nD τ).loc main_arg0)) (m ((c : Thread nD τ).loc main_arg2)) :=
  (W4_arr m ρ c 2).trans ((Product0.final (V3 m ρ) c).trans
    (congrArg₂ (Cert.ReferenceIdeal.Spec.proj1 (F := Ideal)) (W3_arg0 m ρ c) (W3_arg2 m ρ c)))
theorem W4_src : W4 m ρ c (Proc.devRef .tc main_v5) = Cert.ReferenceIdeal.Spec.src (F := Ideal) (m ((c : Thread nD τ).loc main_arg1)) := (W4_of_ne m ρ c main_v5 (by decide)).trans (W3_src m ρ c)
theorem W4_dst : W4 m ρ c (Proc.devRef .tc main_v6) = Cert.ReferenceIdeal.Spec.dst (F := Ideal) (m ((c : Thread nD τ).loc main_arg1)) := (W4_of_ne m ρ c main_v6 (by decide)).trans (W3_dst m ρ c)
theorem W4_nc : W4 m ρ c (Proc.devRef .tc main_v35) = Cert.ReferenceIdeal.Spec.normCol (F := Ideal) (m ((c : Thread nD τ).loc main_arg1)) := (W4_of_ne m ρ c main_v35 (by decide)).trans (W3_nc m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ### Before the second launch: the hidden features -/

theorem W6_hidden : W6 m ρ c (Proc.devRef .tc main_v52) = Cert.ReferenceIdeal.Spec.hidden (F := Ideal) (m ((c : Thread nD τ).loc main_arg0)) (m ((c : Thread nD τ).loc main_arg1)) (m ((c : Thread nD τ).loc main_arg2)) (m ((c : Thread nD τ).loc main_arg3)) := by
  refine (mid_hidden (W4 m ρ c)).trans ?_
  rw [W4_proj m ρ c, W4_src m ρ c, W4_dst m ρ c, W4_nc m ρ c, W4_arg3 m ρ c]
  rfl
theorem W6_src : W6 m ρ c (Proc.devRef .tc main_v5) = Cert.ReferenceIdeal.Spec.src (F := Ideal) (m ((c : Thread nD τ).loc main_arg1)) := (mid_keep_main_v5 (W4 m ρ c)).trans (W4_src m ρ c)
theorem W6_dst : W6 m ρ c (Proc.devRef .tc main_v6) = Cert.ReferenceIdeal.Spec.dst (F := Ideal) (m ((c : Thread nD τ).loc main_arg1)) := (mid_keep_main_v6 (W4 m ρ c)).trans (W4_dst m ρ c)
theorem W6_nc : W6 m ρ c (Proc.devRef .tc main_v35) = Cert.ReferenceIdeal.Spec.normCol (F := Ideal) (m ((c : Thread nD τ).loc main_arg1)) := (mid_keep_main_v35 (W4 m ρ c)).trans (W4_nc m ρ c)
theorem W6_arg4 : W6 m ρ c (Proc.devRef .tc main_arg4) = (m ((c : Thread nD τ).loc main_arg4)) := (mid_keep_main_arg4 (W4 m ρ c)).trans (W4_arg4 m ρ c)
theorem W6_arg5 : W6 m ρ c (Proc.devRef .tc main_arg5) = (m ((c : Thread nD τ).loc main_arg5)) := (mid_keep_main_arg5 (W4 m ρ c)).trans (W4_arg5 m ρ c)

/-! ### After the second launch -/

theorem W7_proj : W7 m ρ c (Proc.devRef .tc main_v53) = Cert.ReferenceIdeal.Spec.proj2 (F := Ideal) (Cert.ReferenceIdeal.Spec.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((Product1.final (V6 m ρ) c).trans
    (congrArg₂ (Cert.ReferenceIdeal.Spec.proj2 (F := Ideal)) (W6_hidden m ρ c) (W6_arg4 m ρ c)))
theorem W7_src : W7 m ρ c (Proc.devRef .tc main_v5) = Cert.ReferenceIdeal.Spec.src (F := Ideal) (m ((c : Thread nD τ).loc main_arg1)) := (W7_of_ne m ρ c main_v5 (by decide)).trans (W6_src m ρ c)
theorem W7_dst : W7 m ρ c (Proc.devRef .tc main_v6) = Cert.ReferenceIdeal.Spec.dst (F := Ideal) (m ((c : Thread nD τ).loc main_arg1)) := (W7_of_ne m ρ c main_v6 (by decide)).trans (W6_dst m ρ c)
theorem W7_nc : W7 m ρ c (Proc.devRef .tc main_v35) = Cert.ReferenceIdeal.Spec.normCol (F := Ideal) (m ((c : Thread nD τ).loc main_arg1)) := (W7_of_ne m ρ c main_v35 (by decide)).trans (W6_nc m ρ c)
theorem W7_arg5 : W7 m ρ c (Proc.devRef .tc main_arg5) = (m ((c : Thread nD τ).loc main_arg5)) := (W7_of_ne m ρ c main_arg5 (by decide)).trans (W6_arg5 m ρ c)

/-! ### At the return -/

/-- THE RESULT: the kernel's result buffer ends holding the specification's `out` of the six arguments. -/
theorem W8_out : W8 m ρ c (Proc.devRef .tc main_v68) = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (tail_out (W7 m ρ c)).trans ?_
  rw [W7_proj m ρ c, W7_src m ρ c, W7_dst m ρ c, W7_nc m ρ c, W7_arg5 m ρ c]
  rfl

end Cert.KernelIdeal.Stages

end
-- ==== Proof.RefRun.lean ====
/-
  The reference's run, read back.

  The reference is a host program with no kernel launch: its @main is a line of 133 tensor operations (the bodies
  of the three outlined helper functions stand at their call sites). Listed in order (`ops`), the program IS their
  sequence (`main_eq`), so every weakly fair execution terminates with each buffer at the operations' composed value
  of the launch contents. Composed, the result buffer holds the specification's `Spec.out` of the six arguments:
  the program computes the message weights twice, once per round, from the same edge list, and both computations
  are the specification's `normCol`. The arguments end as launched.
-/
import proofs.«130710_j1073741824486_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 133 operations, in order. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x00000000#32),
    StableHlo.unary main_cst main_v7 (broadcastInDim S100000 ![] bcast_S_S100000 : (⟨S_, .f32⟩ : BufTy).Contents (Elt F) → (⟨S100000, .f32⟩ : BufTy).Contents (Elt F)),
    StableHlo.nullary main_cst_0 (constant S_ .f32 0x3F800000#32),
    StableHlo.unary main_cst_0 main_v8 (broadcastInDim S1700000 ![] bcast_S_S1700000 : (⟨S_, .f32⟩ : BufTy).Contents (Elt F) → (⟨S1700000, .f32⟩ : BufTy).Contents (Elt F)),
    StableHlo.nullary main_c (constantI S_ 32 0#32),
    StableHlo.unary main_c main_v9 (broadcastInDim S1700000 ![] bcast_S_S1700000 : (⟨S_, .i32⟩ : BufTy).Contents (Elt F) → (⟨S1700000, .i32⟩ : BufTy).Contents (Elt F)),
    StableHlo.binary main_v6 main_v9 main_v10 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v11 (broadcastInDim S1700000 ![] bcast_S_S1700000 : (⟨S_, .i32⟩ : BufTy).Contents (Elt F) → (⟨S1700000, .i32⟩ : BufTy).Contents (Elt F)),
    StableHlo.binary main_v6 main_v11 main_v12 (addi : (⟨S1700000, .i32⟩ : BufTy).Contents (Elt F) → (⟨S1700000, .i32⟩ : BufTy).Contents (Elt F) → (⟨S1700000, .i32⟩ : BufTy).Contents (Elt F)),
    StableHlo.ternary main_v10 main_v12 main_v6 main_v13 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v13 main_v14 (broadcastInDim S1700000x1 ![0] bcast_S1700000_S1700000x1_0 : (⟨S1700000, .i32⟩ : BufTy).Contents (Elt F) → (⟨S1700000x1, .i32⟩ : BufTy).Contents (Elt F)),
    StableHlo.ternary main_v7 main_v14 main_v8 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_2 (constant S_ .f32 0x00000000#32),
    StableHlo.unary main_cst_2 main_v16 (broadcastInDim S100000 ![] bcast_S_S100000 : (⟨S_, .f32⟩ : BufTy).Contents (Elt F) → (⟨S100000, .f32⟩ : BufTy).Contents (Elt F)),
    StableHlo.binary main_v15 main_v16 main_v17 (cmpf .ogt : (⟨S100000, .f32⟩ : BufTy).Contents (Elt F) → (⟨S100000, .f32⟩ : BufTy).Contents (Elt F) → (⟨S100000, .i1⟩ : BufTy).Contents (Elt F)),
    StableHlo.unary main_v15 main_v18 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v17 : StableHlo.TRef sig ⟨S100000, .i1⟩) (.of main_v18 : StableHlo.TRef sig ⟨S100000, .f32⟩) (.of main_call0_v1 : StableHlo.TRef sig ⟨S100000, .f32⟩) (.of main_v19 : StableHlo.TRef sig ⟨S100000, .f32⟩) select,
    StableHlo.nullary main_c_4 (constantI S_ 32 0#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v5 main_v20 main_v21 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v22 (broadcastInDim S1700000 ![] bcast_S_S1700000 : (⟨S_, .i32⟩ : BufTy).Contents (Elt F) → (⟨S1700000, .i32⟩ : BufTy).Contents (Elt F)),
    StableHlo.binary main_v5 main_v22 main_v23 (addi : (⟨S1700000, .i32⟩ : BufTy).Contents (Elt F) → (⟨S1700000, .i32⟩ : BufTy).Contents (Elt F) → (⟨S1700000, .i32⟩ : BufTy).Contents (Elt F)),
    StableHlo.ternary main_v21 main_v23 main_v5 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v24 main_v25 (broadcastInDim S1700000x1 ![0] bcast_S1700000_S1700000x1_0 : (⟨S1700000, .i32⟩ : BufTy).Contents (Elt F) → (⟨S1700000x1, .i32⟩ : BufTy).Contents (Elt F)),
    StableHlo.binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_6 (constantI S_ 32 0#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v19 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_8 (constantI S_ 32 0#32),
    StableHlo.unary main_c_8 main_v36 (broadcastInDim S1700000 ![] bcast_S_S1700000 : (⟨S_, .i32⟩ : BufTy).Contents (Elt F) → (⟨S1700000, .i32⟩ : BufTy).Contents (Elt F)),
    StableHlo.binary main_v5 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v38 (broadcastInDim S1700000 ![] bcast_S_S1700000 : (⟨S_, .i32⟩ : BufTy).Contents (Elt F) → (⟨S1700000, .i32⟩ : BufTy).Contents (Elt F)),
    StableHlo.binary main_v5 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v34 main_v43 (broadcastInDim S1700000x1 ![0] bcast_S1700000_S1700000x1_0 : (⟨S1700000, .f32⟩ : BufTy).Contents (Elt F) → (⟨S1700000x1, .f32⟩ : BufTy).Contents (Elt F)),
    StableHlo.unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    StableHlo.nullary main_cst_10 (constant S_ .f32 0x00000000#32),
    StableHlo.unary main_cst_10 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v51 : StableHlo.TRef sig ⟨S100000x128, .f32⟩) (.of main_call1_v0 : StableHlo.TRef sig ⟨S100000x128, .f32⟩) (.of main_v52 : StableHlo.TRef sig ⟨S100000x128, .f32⟩) maximumf,
    StableHlo.nullary main_v53 (iotaInDim S100000 32 0),
    StableHlo.binary main_v1 main_v53 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v53 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.nullary main_cst_12 (constant S_ .f32 0x3F800000#32),
    StableHlo.unary main_cst_12 main_v57 (broadcastInDim S1700000 ![] bcast_S_S1700000 : (⟨S_, .f32⟩ : BufTy).Contents (Elt F) → (⟨S1700000, .f32⟩ : BufTy).Contents (Elt F)),
    StableHlo.nullary main_c_13 (constantI S_ 32 0#32),
    StableHlo.unary main_c_13 main_v58 (broadcastInDim S1700000 ![] bcast_S_S1700000 : (⟨S_, .i32⟩ : BufTy).Contents (Elt F) → (⟨S1700000, .i32⟩ : BufTy).Contents (Elt F)),
    StableHlo.binary main_v55 main_v58 main_v59 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v60 (broadcastInDim S1700000 ![] bcast_S_S1700000 : (⟨S_, .i32⟩ : BufTy).Contents (Elt F) → (⟨S1700000, .i32⟩ : BufTy).Contents (Elt F)),
    StableHlo.binary main_v55 main_v60 main_v61 (addi : (⟨S1700000, .i32⟩ : BufTy).Contents (Elt F) → (⟨S1700000, .i32⟩ : BufTy).Contents (Elt F) → (⟨S1700000, .i32⟩ : BufTy).Contents (Elt F)),
    StableHlo.ternary main_v59 main_v61 main_v55 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v62 main_v63 (broadcastInDim S1700000x1 ![0] bcast_S1700000_S1700000x1_0 : (⟨S1700000, .i32⟩ : BufTy).Contents (Elt F) → (⟨S1700000x1, .i32⟩ : BufTy).Contents (Elt F)),
    StableHlo.ternary main_v56 main_v63 main_v57 main_v64 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_15 (constant S_ .f32 0x00000000#32),
    StableHlo.unary main_cst_15 main_v65 (broadcastInDim S100000 ![] bcast_S_S100000 : (⟨S_, .f32⟩ : BufTy).Contents (Elt F) → (⟨S100000, .f32⟩ : BufTy).Contents (Elt F)),
    StableHlo.binary main_v64 main_v65 main_v66 (cmpf .ogt : (⟨S100000, .f32⟩ : BufTy).Contents (Elt F) → (⟨S100000, .f32⟩ : BufTy).Contents (Elt F) → (⟨S100000, .i1⟩ : BufTy).Contents (Elt F)),
    StableHlo.unary main_v64 main_v67 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S100000, .f32⟩) (broadcastInDim S100000 ![] bcast_S_S100000),
    StableHlo.TRef.ternary (.of main_v66 : StableHlo.TRef sig ⟨S100000, .i1⟩) (.of main_v67 : StableHlo.TRef sig ⟨S100000, .f32⟩) (.of main_call2_v1 : StableHlo.TRef sig ⟨S100000, .f32⟩) (.of main_v68 : StableHlo.TRef sig ⟨S100000, .f32⟩) select,
    StableHlo.nullary main_c_17 (constantI S_ 32 0#32),
    StableHlo.unary main_c_17 main_v69 (broadcastInDim S1700000 ![] bcast_S_S1700000 : (⟨S_, .i32⟩ : BufTy).Contents (Elt F) → (⟨S1700000, .i32⟩ : BufTy).Contents (Elt F)),
    StableHlo.binary main_v54 main_v69 main_v70 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v71 (broadcastInDim S1700000 ![] bcast_S_S1700000 : (⟨S_, .i32⟩ : BufTy).Contents (Elt F) → (⟨S1700000, .i32⟩ : BufTy).Contents (Elt F)),
    StableHlo.binary main_v54 main_v71 main_v72 (addi : (⟨S1700000, .i32⟩ : BufTy).Contents (Elt F) → (⟨S1700000, .i32⟩ : BufTy).Contents (Elt F) → (⟨S1700000, .i32⟩ : BufTy).Contents (Elt F)),
    StableHlo.ternary main_v70 main_v72 main_v54 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v73 main_v74 (broadcastInDim S1700000x1 ![0] bcast_S1700000_S1700000x1_0 : (⟨S1700000, .i32⟩ : BufTy).Contents (Elt F) → (⟨S1700000x1, .i32⟩ : BufTy).Contents (Elt F)),
    StableHlo.binary main_v68 main_v74 main_v75 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_19 (constantI S_ 32 0#32),
    StableHlo.unary main_c_19 main_v76 (broadcastInDim S1700000 ![] bcast_S_S1700000 : (⟨S_, .i32⟩ : BufTy).Contents (Elt F) → (⟨S1700000, .i32⟩ : BufTy).Contents (Elt F)),
    StableHlo.binary main_v55 main_v76 main_v77 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v78 (broadcastInDim S1700000 ![] bcast_S_S1700000 : (⟨S_, .i32⟩ : BufTy).Contents (Elt F) → (⟨S1700000, .i32⟩ : BufTy).Contents (Elt F)),
    StableHlo.binary main_v55 main_v78 main_v79 (addi : (⟨S1700000, .i32⟩ : BufTy).Contents (Elt F) → (⟨S1700000, .i32⟩ : BufTy).Contents (Elt F) → (⟨S1700000, .i32⟩ : BufTy).Contents (Elt F)),
    StableHlo.ternary main_v77 main_v79 main_v55 main_v80 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v80 main_v81 (broadcastInDim S1700000x1 ![0] bcast_S1700000_S1700000x1_0 : (⟨S1700000, .i32⟩ : BufTy).Contents (Elt F) → (⟨S1700000x1, .i32⟩ : BufTy).Contents (Elt F)),
    StableHlo.binary main_v68 main_v81 main_v82 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v75 main_v82 main_v83 (mulf : (⟨S1700000, .f32⟩ : BufTy).Contents (Elt F) → (⟨S1700000, .f32⟩ : BufTy).Contents (Elt F) → (⟨S1700000, .f32⟩ : BufTy).Contents (Elt F)),
    StableHlo.binary main_v52 main_arg4 main_v84 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_21 (constantI S_ 32 0#32),
    StableHlo.unary main_c_21 main_v85 (broadcastInDim S1700000 ![] bcast_S_S1700000 : (⟨S_, .i32⟩ : BufTy).Contents (Elt F) → (⟨S1700000, .i32⟩ : BufTy).Contents (Elt F)),
    StableHlo.binary main_v54 main_v85 main_v86 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v87 (broadcastInDim S1700000 ![] bcast_S_S1700000 : (⟨S_, .i32⟩ : BufTy).Contents (Elt F) → (⟨S1700000, .i32⟩ : BufTy).Contents (Elt F)),
    StableHlo.binary main_v54 main_v87 main_v88 (addi : (⟨S1700000, .i32⟩ : BufTy).Contents (Elt F) → (⟨S1700000, .i32⟩ : BufTy).Contents (Elt F) → (⟨S1700000, .i32⟩ : BufTy).Contents (Elt F)),
    StableHlo.ternary main_v86 main_v88 main_v54 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v89 main_v90 (broadcastInDim S1700000x1 ![0] bcast_S1700000_S1700000x1_0 : (⟨S1700000, .i32⟩ : BufTy).Contents (Elt F) → (⟨S1700000x1, .i32⟩ : BufTy).Contents (Elt F)),
    StableHlo.binary main_v84 main_v90 main_v91 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v83 main_v92 (broadcastInDim S1700000x1 ![0] bcast_S1700000_S1700000x1_0 : (⟨S1700000, .f32⟩ : BufTy).Contents (Elt F) → (⟨S1700000x1, .f32⟩ : BufTy).Contents (Elt F)),
    StableHlo.unary main_v92 main_v93 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v91 main_v93 main_v94 (mulf : (⟨S1700000x64, .f32⟩ : BufTy).Contents (Elt F) → (⟨S1700000x64, .f32⟩ : BufTy).Contents (Elt F) → (⟨S1700000x64, .f32⟩ : BufTy).Contents (Elt F)),
    StableHlo.nullary main_cst_23 (constant S_ .f32 0x00000000#32),
    StableHlo.unary main_cst_23 main_v95 (broadcastInDim S100000x64 ![] bcast_S_S100000x64 : (⟨S_, .f32⟩ : BufTy).Contents (Elt F) → (⟨S100000x64, .f32⟩ : BufTy).Contents (Elt F)),
    StableHlo.unary main_v55 main_v96 (broadcastInDim S1700000x1 ![0] bcast_S1700000_S1700000x1_0 : (⟨S1700000, .i32⟩ : BufTy).Contents (Elt F) → (⟨S1700000x1, .i32⟩ : BufTy).Contents (Elt F)),
    StableHlo.ternary main_v95 main_v96 main_v94 main_v97 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg5 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v99 main_v100 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The printed program is the sequence of these operations. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

set_option maxRecDepth 8192 in
set_option maxHeartbeats 53200000 in
/-- On every device, from any memory with zero counters: every weakly fair execution terminates with the result
    at `Spec.out` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v100).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.lean ====
/-
  A two-round graph convolution, computed by a kernel program and by a plain host program, gives equal results over
  the extended reals.

  Both programs take node features `x` (100000 × 128), an edge list `e` (2 × 1600000 node numbers), and two weight
  matrices with their biases. Both append a self-loop to every node, count each node's incoming messages, take the
  inverse square root of the positive counts, weigh message `k` by the product of that value at its two endpoints,
  and run two rounds of "project the features, gather each message's source row, scale it, sum the messages at
  their targets, add the bias", with a rectifier between the rounds. The programs differ in two places only.
  (1) The projections `x · W1` and `h · W2`: the kernel program computes each in 20 blocks of 5000 rows on the
  TensorCore, after narrowing both operands to bfloat16 and accumulating into zeros in float32; the host program
  applies one `dot_general` to the whole arrays. Over the extended reals the change of format is the identity, and
  both are the same sum of 128 products at every entry, block by block or at once; the blocks tile the rows.
  (2) The host program recomputes the message endpoints and weights for the second round, the kernel program reuses
  the first round's; they are the same function of the same edge list.
  Everything else is the same operation on the same operands, so no law of arithmetic beyond the re-indexing of a
  finite sum is used, and the precondition (finite inputs) is never opened: the two results agree on every input.

  The modules: `Spec` states the computation once; `RefRun` shows the host program ends at it; `BlockProduct` reads
  the four matrix products at an entry; `Product0` / `Product1` show each launch's output array is the whole
  product; `KernelRun` names the kernel program's result buffer at the end of its run; `Stages` follows the kernel
  program's buffers to the specification. The kernel's idealization rewrote no operation, so that claim is trivial.
-/
import proofs.«130710_j1073741824486_1_alg».proof.Defs
import proofs.«130710_j1073741824486_1_alg».proof.Proof.Gen.Kernel
import proofs.«130710_j1073741824486_1_alg».proof.Proof.Gen.Kernel.Skeleton
import proofs.«130710_j1073741824486_1_alg».proof.Proof.Gen.Kernel.Launch
import proofs.«130710_j1073741824486_1_alg».proof.Proof.Gen.Kernel.Points
import proofs.«130710_j1073741824486_1_alg».proof.Proof.Gen.Kernel.Frame
import proofs.«130710_j1073741824486_1_alg».proof.Proof.Gen.KernelIdeal
import proofs.«130710_j1073741824486_1_alg».proof.Proof.Gen.KernelIdeal.Skeleton
import proofs.«130710_j1073741824486_1_alg».proof.Proof.Gen.KernelIdeal.Launch
import proofs.«130710_j1073741824486_1_alg».proof.Proof.Gen.KernelIdeal.Points
import proofs.«130710_j1073741824486_1_alg».proof.Proof.Gen.KernelIdeal.Frame
import proofs.«130710_j1073741824486_1_alg».proof.Proof.Gen.ReferenceIdeal
import proofs.«130710_j1073741824486_1_alg».proof.Proof.Gen.Pre_finite_inputs
import proofs.«130710_j1073741824486_1_alg».proof.Proof.KernelRun
import proofs.«130710_j1073741824486_1_alg».proof.Proof.Stages
import proofs.«130710_j1073741824486_1_alg».proof.Proof.RefRun
import Idealize.ShloMosaic.Adequacy
import Idealize.ShloMosaic.Init

noncomputable section

namespace Cert.Proof

open Idealize.ShloMosaic Idealize.SL.Sem

/-- The word-level kernel program runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the host program: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel program. -/
theorem preserves : Cert.preserves_Kernel_KernelIdeal := trivial

/-- From memories that agree on the six arguments both programs end with the result at the specification's `out`
    of those arguments: the kernel program by following its buffers through its stretches and launches, the host
    program by composing its operations. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.W8_out m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
